-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S50000x256 : Shape := ⟨2, ![50000, 256]⟩
abbrev S400000 : Shape := ⟨1, ![400000]⟩
abbrev S50000x2 : Shape := ⟨2, ![50000, 2]⟩
abbrev S50000 : Shape := ⟨1, ![50000]⟩
abbrev S2x256 : Shape := ⟨2, ![2, 256]⟩
abbrev S2x2 : Shape := ⟨2, ![2, 2]⟩
abbrev S2 : Shape := ⟨1, ![2]⟩
abbrev S256x256 : Shape := ⟨2, ![256, 256]⟩
abbrev S256 : Shape := ⟨1, ![256]⟩

class Facts : Prop where
  reducesTo_S_S_d : S_.ReducesTo [] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S400000 : S_.BroadcastsInDim S400000 (![] : Fin 0 → Fin S400000.rank)
  reducesTo_S400000_S_d0 : S400000.ReducesTo [0] S_
  bcast_S_S50000x2 : S_.BroadcastsInDim S50000x2 (![] : Fin 0 → Fin S50000x2.rank)
  reducesTo_S50000x2_S_d0_1 : S50000x2.ReducesTo [0, 1] S_
  bcast_S_S50000 : S_.BroadcastsInDim S50000 (![] : Fin 0 → Fin S50000.rank)
  reducesTo_S50000_S_d0 : S50000.ReducesTo [0] S_
  bcast_S_S2x256 : S_.BroadcastsInDim S2x256 (![] : Fin 0 → Fin S2x256.rank)
  reducesTo_S2x256_S_d0_1 : S2x256.ReducesTo [0, 1] S_
  bcast_S_S2x2 : S_.BroadcastsInDim S2x2 (![] : Fin 0 → Fin S2x2.rank)
  reducesTo_S2x2_S_d0_1 : S2x2.ReducesTo [0, 1] S_
  bcast_S_S2 : S_.BroadcastsInDim S2 (![] : Fin 0 → Fin S2.rank)
  reducesTo_S2_S_d0 : S2.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg13 : FVec F S256 .f32) (main_v47 : IVec S_ 1) (main_v50 : IVec S256x256 1) : IVec S_ 1 :=
  let main_c_19 : IVec S_ 1 := constantI S_ 1 1#1
  let main_v51 : IVec S_ 1 := (fun x v => Host.reduce IntOp.andi x v reducesTo_S256x256_S_d0_1 h_S_) main_v50 main_c_19
  let main_v52 : IVec S_ 1 := andi main_v47 main_v51
  let main_v53 : FVec F S256 .f32 := Host.absf main_arg13
  let main_cst_20 : FVec F S_ .f32 := constant S_ .f32 0x7F800000#32
  let main_v54 : FVec F S256 .f32 := broadcastInDim S256 ![] bcast_S_S256 main_cst_20
  let main_v55 : IVec S256 1 := cmpf .olt main_v53 main_v54
  let main_c_21 : IVec S_ 1 := constantI S_ 1 1#1
  let main_v56 : IVec S_ 1 := (fun x v => Host.reduce IntOp.andi x v reducesTo_S256_S_d0 h_S_) main_v55 main_c_21
  let main_v57 : IVec S_ 1 := andi main_v52 main_v56
  main_v57

def fn_part2 {F : FTy → Type} [FloatOps F] (main_arg10 : FVec F S2 .f32) (main_arg11 : FVec F S2 .f32) (main_arg12 : FVec F S256x256 .f32) (main_arg13 : FVec F S256 .f32) (main_v32 : IVec S_ 1) (main_v33 : FVec F S2x2 .f32) : IVec S_ 1 :=
  let main_cst_12 : FVec F S_ .f32 := constant S_ .f32 0x7F800000#32
  let main_v34 : FVec F S2x2 .f32 := broadcastInDim S2x2 ![] bcast_S_S2x2 main_cst_12
  let main_v35 : IVec S2x2 1 := cmpf .olt main_v33 main_v34
  let main_c_13 : IVec S_ 1 := constantI S_ 1 1#1
  let main_v36 : IVec S_ 1 := (fun x v => Host.reduce IntOp.andi x v reducesTo_S2x2_S_d0_1 h_S_) main_v35 main_c_13
  let main_v37 : IVec S_ 1 := andi main_v32 main_v36
  let main_v38 : FVec F S2 .f32 := Host.absf main_arg10
  let main_cst_14 : FVec F S_ .f32 := constant S_ .f32 0x7F800000#32
  let main_v39 : FVec F S2 .f32 := broadcastInDim S2 ![] bcast_S_S2 main_cst_14
  let main_v40 : IVec S2 1 := cmpf .olt main_v38 main_v39
  let main_c_15 : IVec S_ 1 := constantI S_ 1 1#1
  let main_v41 : IVec S_ 1 := (fun x v => Host.reduce IntOp.andi x v reducesTo_S2_S_d0 h_S_) main_v40 main_c_15
  let main_v42 : IVec S_ 1 := andi main_v37 main_v41
  let main_v43 : FVec F S2 .f32 := Host.absf main_arg11
  let main_cst_16 : FVec F S_ .f32 := constant S_ .f32 0x7F800000#32
  let main_v44 : FVec F S2 .f32 := broadcastInDim S2 ![] bcast_S_S2 main_cst_16
  let main_v45 : IVec S2 1 := cmpf .olt main_v43 main_v44
  let main_c_17 : IVec S_ 1 := constantI S_ 1 1#1
  let main_v46 : IVec S_ 1 := (fun x v => Host.reduce IntOp.andi x v reducesTo_S2_S_d0 h_S_) main_v45 main_c_17
  let main_v47 : IVec S_ 1 := andi main_v42 main_v46
  let main_v48 : FVec F S256x256 .f32 := Host.absf main_arg12
  let main_cst_18 : FVec F S_ .f32 := constant S_ .f32 0x7F800000#32
  let main_v49 : FVec F S256x256 .f32 := broadcastInDim S256x256 ![] bcast_S_S256x256 main_cst_18
  let main_v50 : IVec S256x256 1 := cmpf .olt main_v48 main_v49
  fn_part3 (F := F) main_arg13 main_v47 main_v50

def fn_part1 {F : FTy → Type} [FloatOps F] (main_arg6 : FVec F S50000x2 .f32) (main_arg7 : FVec F S50000 .f32) (main_arg8 : FVec F S2x256 .f32) (main_arg9 : FVec F S2x2 .f32) (main_arg10 : FVec F S2 .f32) (main_arg11 : FVec F S2 .f32) (main_arg12 : FVec F S256x256 .f32) (main_arg13 : FVec F S256 .f32) (main_v12 : IVec S_ 1) (main_v15 : IVec S400000 1) (main_c_5 : IVec S_ 1) : IVec S_ 1 :=
  let main_v16 : IVec S_ 1 := (fun x v => Host.reduce IntOp.andi x v reducesTo_S400000_S_d0 h_S_) main_v15 main_c_5
  let main_v17 : IVec S_ 1 := andi main_v12 main_v16
  let main_v18 : FVec F S50000x2 .f32 := Host.absf main_arg6
  let main_cst_6 : FVec F S_ .f32 := constant S_ .f32 0x7F800000#32
  let main_v19 : FVec F S50000x2 .f32 := broadcastInDim S50000x2 ![] bcast_S_S50000x2 main_cst_6
  let main_v20 : IVec S50000x2 1 := cmpf .olt main_v18 main_v19
  let main_c_7 : IVec S_ 1 := constantI S_ 1 1#1
  let main_v21 : IVec S_ 1 := (fun x v => Host.reduce IntOp.andi x v reducesTo_S50000x2_S_d0_1 h_S_) main_v20 main_c_7
  let main_v22 : IVec S_ 1 := andi main_v17 main_v21
  let main_v23 : FVec F S50000 .f32 := Host.absf main_arg7
  let main_cst_8 : FVec F S_ .f32 := constant S_ .f32 0x7F800000#32
  let main_v24 : FVec F S50000 .f32 := broadcastInDim S50000 ![] bcast_S_S50000 main_cst_8
  let main_v25 : IVec S50000 1 := cmpf .olt main_v23 main_v24
  let main_c_9 : IVec S_ 1 := constantI S_ 1 1#1
  let main_v26 : IVec S_ 1 := (fun x v => Host.reduce IntOp.andi x v reducesTo_S50000_S_d0 h_S_) main_v25 main_c_9
  let main_v27 : IVec S_ 1 := andi main_v22 main_v26
  let main_v28 : FVec F S2x256 .f32 := Host.absf main_arg8
  let main_cst_10 : FVec F S_ .f32 := constant S_ .f32 0x7F800000#32
  let main_v29 : FVec F S2x256 .f32 := broadcastInDim S2x256 ![] bcast_S_S2x256 main_cst_10
  let main_v30 : IVec S2x256 1 := cmpf .olt main_v28 main_v29
  let main_c_11 : IVec S_ 1 := constantI S_ 1 1#1
  let main_v31 : IVec S_ 1 := (fun x v => Host.reduce IntOp.andi x v reducesTo_S2x256_S_d0_1 h_S_) main_v30 main_c_11
  let main_v32 : IVec S_ 1 := andi main_v27 main_v31
  let main_v33 : FVec F S2x2 .f32 := Host.absf main_arg9
  fn_part2 (F := F) main_arg10 main_arg11 main_arg12 main_arg13 main_v32 main_v33

def fn {F : FTy → Type} [FloatOps F] (main_arg0 : FVec F S_ .f32) (main_arg1 : FVec F S50000x256 .f32) (main_arg2 : FVec F S50000x256 .f32) (main_arg3 : IVec S400000 32) (main_arg4 : IVec S400000 32) (main_arg5 : FVec F S400000 .f32) (main_arg6 : FVec F S50000x2 .f32) (main_arg7 : FVec F S50000 .f32) (main_arg8 : FVec F S2x256 .f32) (main_arg9 : FVec F S2x2 .f32) (main_arg10 : FVec F S2 .f32) (main_arg11 : FVec F S2 .f32) (main_arg12 : FVec F S256x256 .f32) (main_arg13 : FVec F S256 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S50000x256 .f32 := Host.absf main_arg1
  let main_cst_0 : FVec F S_ .f32 := constant S_ .f32 0x7F800000#32
  let main_v4 : FVec F S50000x256 .f32 := broadcastInDim S50000x256 ![] bcast_S_S50000x256 main_cst_0
  let main_v5 : IVec S50000x256 1 := cmpf .olt main_v3 main_v4
  let main_c_1 : IVec S_ 1 := constantI S_ 1 1#1
  let main_v6 : IVec S_ 1 := (fun x v => Host.reduce IntOp.andi x v reducesTo_S50000x256_S_d0_1 h_S_) main_v5 main_c_1
  let main_v7 : IVec S_ 1 := andi main_v2 main_v6
  let main_v8 : FVec F S50000x256 .f32 := Host.absf main_arg2
  let main_cst_2 : FVec F S_ .f32 := constant S_ .f32 0x7F800000#32
  let main_v9 : FVec F S50000x256 .f32 := broadcastInDim S50000x256 ![] bcast_S_S50000x256 main_cst_2
  let main_v10 : IVec S50000x256 1 := cmpf .olt main_v8 main_v9
  let main_c_3 : IVec S_ 1 := constantI S_ 1 1#1
  let main_v11 : IVec S_ 1 := (fun x v => Host.reduce IntOp.andi x v reducesTo_S50000x256_S_d0_1 h_S_) main_v10 main_c_3
  let main_v12 : IVec S_ 1 := andi main_v7 main_v11
  let main_v13 : FVec F S400000 .f32 := Host.absf main_arg5
  let main_cst_4 : FVec F S_ .f32 := constant S_ .f32 0x7F800000#32
  let main_v14 : FVec F S400000 .f32 := broadcastInDim S400000 ![] bcast_S_S400000 main_cst_4
  let main_v15 : IVec S400000 1 := cmpf .olt main_v13 main_v14
  let main_c_5 : IVec S_ 1 := constantI S_ 1 1#1
  fn_part1 (F := F) main_arg6 main_arg7 main_arg8 main_arg9 main_arg10 main_arg11 main_arg12 main_arg13 main_v12 main_v15 main_c_5
-- ==== Kernel.lean ====
abbrev S_ : Shape := ⟨0, ![]⟩
abbrev S50000x256 : Shape := ⟨2, ![50000, 256]⟩
abbrev S400000 : Shape := ⟨1, ![400000]⟩
abbrev S50000x2 : Shape := ⟨2, ![50000, 2]⟩
abbrev S50000 : Shape := ⟨1, ![50000]⟩
abbrev S2x256 : Shape := ⟨2, ![2, 256]⟩
abbrev S2x2 : Shape := ⟨2, ![2, 2]⟩
abbrev S2 : Shape := ⟨1, ![2]⟩
abbrev S256x256 : Shape := ⟨2, ![256, 256]⟩
abbrev S256 : Shape := ⟨1, ![256]⟩
abbrev S400000x1 : Shape := ⟨2, ![400000, 1]⟩
abbrev S400000x256 : Shape := ⟨2, ![400000, 256]⟩
abbrev S1x256 : Shape := ⟨2, ![1, 256]⟩
abbrev S256x2 : Shape := ⟨2, ![256, 2]⟩
abbrev S1x2 : Shape := ⟨2, ![1, 2]⟩
abbrev S50000x1 : Shape := ⟨2, ![50000, 1]⟩
abbrev S2000x256 : Shape := ⟨2, ![2000, 256]⟩
abbrev S2000x2 : Shape := ⟨2, ![2000, 2]⟩
abbrev S2000x1 : Shape := ⟨2, ![2000, 1]⟩

abbrev nBuf : Space → Nat
  | .hbm => 49
  | .vmem => 17
  | .smem => 0
  | _ => 0

abbrev bufTy : (tb : Table) → Fin (tcTables nBuf tb) → BufTy
  | .hbm, ⟨0, _⟩ => ⟨S_, .f32⟩
  | .hbm, ⟨1, _⟩ => ⟨S50000x256, .f32⟩
  | .hbm, ⟨2, _⟩ => ⟨S50000x256, .f32⟩
  | .hbm, ⟨3, _⟩ => ⟨S400000, .i32⟩
  | .hbm, ⟨4, _⟩ => ⟨S400000, .i32⟩
  | .hbm, ⟨5, _⟩ => ⟨S400000, .f32⟩
  | .hbm, ⟨6, _⟩ => ⟨S50000x2, .f32⟩
  | .hbm, ⟨7, _⟩ => ⟨S50000, .f32⟩
  | .hbm, ⟨8, _⟩ => ⟨S2x256, .f32⟩
  | .hbm, ⟨9, _⟩ => ⟨S2x2, .f32⟩
  | .hbm, ⟨10, _⟩ => ⟨S2, .f32⟩
  | .hbm, ⟨11, _⟩ => ⟨S2, .f32⟩
  | .hbm, ⟨12, _⟩ => ⟨S256x256, .f32⟩
  | .hbm, ⟨13, _⟩ => ⟨S256, .f32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S400000x256, .f32⟩
  | .hbm, ⟨23, _⟩ => ⟨S400000x1, .f32⟩
  | .hbm, ⟨24, _⟩ => ⟨S400000x256, .f32⟩
  | .hbm, ⟨25, _⟩ => ⟨S400000x256, .f32⟩
  | .hbm, ⟨26, _⟩ => ⟨S_, .f32⟩
  | .hbm, ⟨27, _⟩ => ⟨S50000x256, .f32⟩
  | .hbm, ⟨28, _⟩ => ⟨S400000x1, .i32⟩
  | .hbm, ⟨29, _⟩ => ⟨S50000x256, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S1x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x2, .f32⟩
  | .hbm, ⟨44, _⟩ => ⟨S2x2, .f32⟩
  | .hbm, ⟨45, _⟩ => ⟨S1x2, .f32⟩
  | .hbm, ⟨46, _⟩ => ⟨S1x2, .f32⟩
  | .hbm, ⟨47, _⟩ => ⟨S50000x1, .f32⟩
  | .hbm, ⟨48, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x2, .f32⟩
  | .local _ .vmem, ⟨7, _⟩ => ⟨S2000x2, .f32⟩
  | .local _ .vmem, ⟨8, _⟩ => ⟨S2000x1, .f32⟩
  | .local _ .vmem, ⟨9, _⟩ => ⟨S2000x1, .f32⟩
  | .local _ .vmem, ⟨10, _⟩ => ⟨S256x2, .f32⟩
  | .local _ .vmem, ⟨11, _⟩ => ⟨S2x2, .f32⟩
  | .local _ .vmem, ⟨12, _⟩ => ⟨S1x2, .f32⟩
  | .local _ .vmem, ⟨13, _⟩ => ⟨S1x2, .f32⟩
  | .local _ .vmem, ⟨14, _⟩ => ⟨S256x256, .f32⟩
  | .local _ .vmem, ⟨15, _⟩ => ⟨S2000x256, .f32⟩
  | .local _ .vmem, ⟨16, _⟩ => ⟨S2000x256, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  transposes_S256x256_S256x256_1_0 : S256x256.Transposes [1, 0] S256x256
  transposes_S2x256_S256x2_1_0 : S2x256.Transposes [1, 0] S256x2
  transposes_S2x2_S2x2_1_0 : S2x2.Transposes [1, 0] S2x2
  shapeCasts_S2_S1x2 : S2.ShapeCasts S1x2
  shapeCasts_S50000_S50000x1 : S50000.ShapeCasts S50000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x2_S2000x2_0_0 : ∀ a, (![0, 0] : Fin 2 → Nat) a + S2000x2.size a ≤ S2000x2.size a
  h_S2000x2 : 0 < S2000x2.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2x2_S2x2_0_0 : ∀ a, (![0, 0] : Fin 2 → Nat) a + S2x2.size a ≤ S2x2.size a
  h_S2x2 : 0 < S2x2.numel
  shapeCasts_S2x2_S2x2 : S2x2.ShapeCasts S2x2
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  slices_S2000x2_o0_0_S2000x1 : S2000x2.Slices ![0, 0] S2000x1
  slices_S2000x2_o0_1_S2000x1 : S2000x2.Slices ![0, 1] S2000x1
  broadcasts_S2000x1_S2000x256 : S2000x1.Broadcasts S2000x256
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S256x256_S256x256_S256x256_1_0_0_1_n_n_wf : DotDims.WF S256x256 S256x256 S256x256 [1] [0] [0] [1] [] []
  dot_S2000x256_S256x2_S2000x2_1_0_0_1_n_n_wf : DotDims.WF S2000x256 S256x2 S2000x2 [1] [0] [0] [1] [] []
  dot_S2000x2_S2x2_S2000x2_1_0_0_1_n_n_wf : DotDims.WF S2000x2 S2x2 S2000x2 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x2.size a ≤ S50000x2.size a
  hwx0_3 : ∀ i : grid0.Coords, EltTy.bits .f32 = 32 ∨ (Rect.block (s := S50000x2) S2000x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .f32 = 32 ∨ (Rect.block (s := S256x2) S256x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x2.size a ≤ S2x2.size a
  hwx0_6 : ∀ i : grid0.Coords, EltTy.bits .f32 = 32 ∨ (Rect.block (s := S2x2) S2x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S50000x256.size a
  hwx0_10 : ∀ i : grid0.Coords, EltTy.bits .f32 = 32 ∨ (Rect.block (s := S50000x256) S2000x256.size (cc0_transform_10 i) (hinb0_10 i)).WholeWords (EltTy.packing .f32)

variable [Facts₀]

def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf
def dot_S2000x2_S2x2_S2000x2_1_0_0_1_n_n : DotDims S2000x2 S2x2 S2000x2 where
  lhsContracting := [1]
  rhsContracting := [0]
  lhsNonContracting := [0]
  rhsNonContracting := [1]
  lhsBatch := []
  rhsBatch := []
  wf := dot_S2000x2_S2x2_S2000x2_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S_ : Shape := ⟨0, ![]⟩
abbrev S50000x256 : Shape := ⟨2, ![50000, 256]⟩
abbrev S400000 : Shape := ⟨1, ![400000]⟩
abbrev S50000x2 : Shape := ⟨2, ![50000, 2]⟩
abbrev S50000 : Shape := ⟨1, ![50000]⟩
abbrev S2x256 : Shape := ⟨2, ![2, 256]⟩
abbrev S2x2 : Shape := ⟨2, ![2, 2]⟩
abbrev S2 : Shape := ⟨1, ![2]⟩
abbrev S256x256 : Shape := ⟨2, ![256, 256]⟩
abbrev S256 : Shape := ⟨1, ![256]⟩
abbrev S256x2 : Shape := ⟨2, ![256, 2]⟩
abbrev S1x2 : Shape := ⟨2, ![1, 2]⟩
abbrev S50000x1 : Shape := ⟨2, ![50000, 1]⟩
abbrev S400000x1 : Shape := ⟨2, ![400000, 1]⟩
abbrev S400000x256 : Shape := ⟨2, ![400000, 256]⟩
abbrev S1x256 : Shape := ⟨2, ![1, 256]⟩

abbrev nBuf : Space → Nat
  | .hbm => 80
  | .vmem => 0
  | .smem => 0
  | _ => 0

abbrev bufTy : (tb : Table) → Fin (tcTables nBuf tb) → BufTy
  | .hbm, ⟨0, _⟩ => ⟨S_, .f32⟩
  | .hbm, ⟨1, _⟩ => ⟨S50000x256, .f32⟩
  | .hbm, ⟨2, _⟩ => ⟨S50000x256, .f32⟩
  | .hbm, ⟨3, _⟩ => ⟨S400000, .i32⟩
  | .hbm, ⟨4, _⟩ => ⟨S400000, .i32⟩
  | .hbm, ⟨5, _⟩ => ⟨S400000, .f32⟩
  | .hbm, ⟨6, _⟩ => ⟨S50000x2, .f32⟩
  | .hbm, ⟨7, _⟩ => ⟨S50000, .f32⟩
  | .hbm, ⟨8, _⟩ => ⟨S2x256, .f32⟩
  | .hbm, ⟨9, _⟩ => ⟨S2x2, .f32⟩
  | .hbm, ⟨10, _⟩ => ⟨S2, .f32⟩
  | .hbm, ⟨11, _⟩ => ⟨S2, .f32⟩
  | .hbm, ⟨12, _⟩ => ⟨S256x256, .f32⟩
  | .hbm, ⟨13, _⟩ => ⟨S256, .f32⟩
  | .hbm, ⟨14, _⟩ => ⟨S256x2, .f32⟩
  | .hbm, ⟨15, _⟩ => ⟨S50000x2, .f32⟩
  | .hbm, ⟨16, _⟩ => ⟨S1x2, .f32⟩
  | .hbm, ⟨17, _⟩ => ⟨S50000x2, .f32⟩
  | .hbm, ⟨18, _⟩ => ⟨S50000x2, .f32⟩
  | .hbm, ⟨19, _⟩ => ⟨S2x2, .f32⟩
  | .hbm, ⟨20, _⟩ => ⟨S50000x2, .f32⟩
  | .hbm, ⟨21, _⟩ => ⟨S50000x2, .f32⟩
  | .hbm, ⟨22, _⟩ => ⟨S1x2, .f32⟩
  | .hbm, ⟨23, _⟩ => ⟨S50000x2, .f32⟩
  | .hbm, ⟨24, _⟩ => ⟨S50000x2, .f32⟩
  | .hbm, ⟨25, _⟩ => ⟨S50000x2, .f32⟩
  | .hbm, ⟨26, _⟩ => ⟨S50000x1, .f32⟩
  | .hbm, ⟨27, _⟩ => ⟨S50000, .f32⟩
  | .hbm, ⟨28, _⟩ => ⟨S50000x1, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x256, .f32⟩
  | .hbm, ⟨50, _⟩ => ⟨S400000x1, .f32⟩
  | .hbm, ⟨51, _⟩ => ⟨S400000x256, .f32⟩
  | .hbm, ⟨52, _⟩ => ⟨S400000x256, .f32⟩
  | .hbm, ⟨53, _⟩ => ⟨S_, .f32⟩
  | .hbm, ⟨54, _⟩ => ⟨S50000x256, .f32⟩
  | .hbm, ⟨55, _⟩ => ⟨S400000x1, .i32⟩
  | .hbm, ⟨56, _⟩ => ⟨S50000x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S256x256, .f32⟩
  | .hbm, ⟨67, _⟩ => ⟨S256x256, .f32⟩
  | .hbm, ⟨68, _⟩ => ⟨S256x256, .f32⟩
  | .hbm, ⟨69, _⟩ => ⟨S256x256, .f32⟩
  | .hbm, ⟨70, _⟩ => ⟨S50000x256, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_cst_4 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]

class Facts₀ : Prop where
  transposes_S2x256_S256x2_1_0 : S2x256.Transposes [1, 0] S256x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  transposes_S2x2_S2x2_1_0 : S2x2.Transposes [1, 0] S2x2
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S50000 : S_.BroadcastsInDim S50000 (![] : Fin 0 → Fin S50000.rank)
  bcast_S50000_S50000x1_0 : S50000.BroadcastsInDim S50000x1 (![0] : Fin 1 → Fin S50000x1.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  transposes_S256x256_S256x256_1_0 : S256x256.Transposes [1, 0] S256x256
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S50000x256_S256x2_S50000x2_1_0_0_1_n_n_wf : DotDims.WF S50000x256 S256x2 S50000x2 [1] [0] [0] [1] [] []
  dot_S50000x2_S2x2_S50000x2_1_0_0_1_n_n_wf : DotDims.WF S50000x2 S2x2 S50000x2 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S256x256_S256x256_S256x256_1_0_0_1_n_n_wf : DotDims.WF S256x256 S256x256 S256x256 [1] [0] [0] [1] [] []
  dot_S50000x256_S256x256_S50000x256_1_0_0_1_n_n_wf : DotDims.WF S50000x256 S256x256 S50000x256 [1] [0] [0] [1] [] []

variable [Facts₀]

def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf
def dot_S50000x2_S2x2_S50000x2_1_0_0_1_n_n : DotDims S50000x2 S2x2 S50000x2 where
  lhsContracting := [1]
  rhsContracting := [0]
  lhsNonContracting := [0]
  rhsNonContracting := [1]
  lhsBatch := []
  rhsBatch := []
  wf := dot_S50000x2_S2x2_S50000x2_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.Gate.lean ====
/-
  One block of 2000 nodes: the gate and the dense product as functions of the block's loaded operands.

  The body evaluates, for the 2000 rows of a block, the cell's pre-activation as two matrix products into zero
  accumulators (the narrowing of their operands changes no value over the extended reals) plus the two bias rows
  broadcast down the block, takes the hyperbolic tangent, cuts its two columns, and forms the logistic function of
  scale · first column + second column. The dense product is a third matrix product of the same kind. Each is read
  here at a row (and column) of the block as the textbook sum.
-/
import proofs.«167394_j44074954391861_1_alg».proof.Proof.Gen.KernelIdeal.Skeleton
import proofs.«167394_j44074954391861_1_alg».proof.Proof.LibMatDot
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx

/-! ## The three matrix products -/

/-- The record of the [2000, 256] × [256, 2] product reads its left operand at (row, position) and its right operand at
    (position, column); into the zero accumulator the product is the plain sum. -/
theorem dot_wide_apply {φ₁ φ₂ : FTy} (L : FVec Ideal S2000x256 φ₁) (R : FVec Ideal S256x2 φ₂) (p : Fin 2000) (q : Fin 2) :
    FloatOps.matmul dot_S2000x256_S256x2_S2000x2_1_0_0_1_n_n none L R (constant (F := Ideal) S2000x2 .f32 0x00000000#32) (ix2 p q)
      = ∑ k : Fin 256, L (ix2 p k) * R (ix2 k q) :=
  mat_dot_zero dot_S2000x256_S256x2_S2000x2_1_0_0_1_n_n none rfl rfl
    (fun i c => by
      unfold DotDims.lhsIdx
      rw [dif_neg (show ¬(0 : Fin S2000x256.rank) ∈ dot_S2000x256_S256x2_S2000x2_1_0_0_1_n_n.lhsBatch by decide),
        dif_pos (show (0 : Fin S2000x256.rank) ∈ dot_S2000x256_S256x2_S2000x2_1_0_0_1_n_n.lhsNonContracting by decide)]
      rfl)
    (fun i c => dot_S2000x256_S256x2_S2000x2_1_0_0_1_n_n.lhsIdx_val_of_single rfl i c)
    (fun i c => dot_S2000x256_S256x2_S2000x2_1_0_0_1_n_n.rhsIdx_val_of_single rfl i c)
    (fun i c => by
      unfold DotDims.rhsIdx
      rw [dif_neg (show ¬(1 : Fin S256x2.rank) ∈ dot_S2000x256_S256x2_S2000x2_1_0_0_1_n_n.rhsBatch by decide),
        dif_pos (show (1 : Fin S256x2.rank) ∈ dot_S2000x256_S256x2_S2000x2_1_0_0_1_n_n.rhsNonContracting by decide)]
      rfl)
    L R p q

/-- The record of the [2000, 2] × [2, 2] product reads its left operand at (row, position) and its right operand at
    (position, column); into the zero accumulator the product is the plain sum. -/
theorem dot_small_apply {φ₁ φ₂ : FTy} (L : FVec Ideal S2000x2 φ₁) (R : FVec Ideal S2x2 φ₂) (p : Fin 2000) (q : Fin 2) :
    FloatOps.matmul dot_S2000x2_S2x2_S2000x2_1_0_0_1_n_n none L R (constant (F := Ideal) S2000x2 .f32 0x00000000#32) (ix2 p q)
      = ∑ k : Fin 2, L (ix2 p k) * R (ix2 k q) :=
  mat_dot_zero dot_S2000x2_S2x2_S2000x2_1_0_0_1_n_n none rfl rfl
    (fun i c => by
      unfold DotDims.lhsIdx
      rw [dif_neg (show ¬(0 : Fin S2000x2.rank) ∈ dot_S2000x2_S2x2_S2000x2_1_0_0_1_n_n.lhsBatch by decide),
        dif_pos (show (0 : Fin S2000x2.rank) ∈ dot_S2000x2_S2x2_S2000x2_1_0_0_1_n_n.lhsNonContracting by decide)]
      rfl)
    (fun i c => dot_S2000x2_S2x2_S2000x2_1_0_0_1_n_n.lhsIdx_val_of_single rfl i c)
    (fun i c => dot_S2000x2_S2x2_S2000x2_1_0_0_1_n_n.rhsIdx_val_of_single rfl i c)
    (fun i c => by
      unfold DotDims.rhsIdx
      rw [dif_neg (show ¬(1 : Fin S2x2.rank) ∈ dot_S2000x2_S2x2_S2000x2_1_0_0_1_n_n.rhsBatch by decide),
        dif_pos (show (1 : Fin S2x2.rank) ∈ dot_S2000x2_S2x2_S2000x2_1_0_0_1_n_n.rhsNonContracting by decide)]
      rfl)
    L R p q

/-- The record of the [2000, 256] × [256, 256] product reads its left operand at (row, position) and its right operand at
    (position, column); into the zero accumulator the product is the plain sum. -/
theorem dot_dense_apply {φ₁ φ₂ : FTy} (L : FVec Ideal S2000x256 φ₁) (R : FVec Ideal S256x256 φ₂) (p : Fin 2000) (q : Fin 256) :
    FloatOps.matmul dot_S2000x256_S256x256_S2000x256_1_0_0_1_n_n none L R (constant (F := Ideal) S2000x256 .f32 0x00000000#32) (ix2 p q)
      = ∑ k : Fin 256, L (ix2 p k) * R (ix2 k q) :=
  mat_dot_zero dot_S2000x256_S256x256_S2000x256_1_0_0_1_n_n none rfl rfl
    (fun i c => by
      unfold DotDims.lhsIdx
      rw [dif_neg (show ¬(0 : Fin S2000x256.rank) ∈ dot_S2000x256_S256x256_S2000x256_1_0_0_1_n_n.lhsBatch by decide),
        dif_pos (show (0 : Fin S2000x256.rank) ∈ dot_S2000x256_S256x256_S2000x256_1_0_0_1_n_n.lhsNonContracting by decide)]
      rfl)
    (fun i c => dot_S2000x256_S256x256_S2000x256_1_0_0_1_n_n.lhsIdx_val_of_single rfl i c)
    (fun i c => dot_S2000x256_S256x256_S2000x256_1_0_0_1_n_n.rhsIdx_val_of_single rfl i c)
    (fun i c => by
      unfold DotDims.rhsIdx
      rw [dif_neg (show ¬(1 : Fin S256x256.rank) ∈ dot_S2000x256_S256x256_S2000x256_1_0_0_1_n_n.rhsBatch by decide),
        dif_pos (show (1 : Fin S256x256.rank) ∈ dot_S2000x256_S256x256_S2000x256_1_0_0_1_n_n.rhsNonContracting by decide)]
      rfl)
    L R p q

/-! ## The gate of a block -/

section
variable (P0 : FVec Ideal S2000x256 .f32) (P1 : FVec Ideal S2000x2 .f32) (P2 : FVec Ideal S2000x1 .f32)
  (P3 : FVec Ideal S256x2 .f32) (P4 : FVec Ideal S2x2 .f32) (P5 P6 : FVec Ideal S1x2 .f32) (P8 : FVec Ideal S256x256 .f32)

/-- The block's pre-activation c(r, j) from its loaded operands: rows of the block against the columns of the
    transposed weights, plus the bias rows. -/
def cellB (r : Fin 2000) (j : Fin 2) : EReal :=
  (((∑ k : Fin 256, P0 (ix2 r k) * P3 (ix2 k j)) + P5 (ix2 (0 : Fin 1) j))
    + (∑ k : Fin 2, P1 (ix2 r k) * P4 (ix2 k j))) + P6 (ix2 (0 : Fin 1) j)

/-- The block's gate σ(r). -/
def gateB (r : Fin 2000) : EReal :=
  Ideal.logistic (P2 (ix2 r (0 : Fin 1)) * Ideal.tanh (cellB P0 P1 P3 P4 P5 P6 r 0) + Ideal.tanh (cellB P0 P1 P3 P4 P5 P6 r 1))

/-- The pre-activation as the body computes it, a [2000, 2] vector. -/
def preB : FVec Ideal S2000x2 .f32 :=
  addf (addf (addf
      (FloatOps.matmul dot_S2000x256_S256x2_S2000x2_1_0_0_1_n_n none (truncf .bf16 P0 bitsLt_bf16_f32)
        (truncf .bf16 (shapeCast S256x2 P3 shapeCasts_S256x2_S256x2) bitsLt_bf16_f32) (constant S2000x2 .f32 0x00000000#32))
      (broadcastTo S2000x2 (shapeCast S1x2 P5 shapeCasts_S1x2_S1x2) broadcasts_S1x2_S2000x2))
      (FloatOps.matmul dot_S2000x2_S2x2_S2000x2_1_0_0_1_n_n none (truncf .bf16 P1 bitsLt_bf16_f32)
        (truncf .bf16 (shapeCast S2x2 P4 shapeCasts_S2x2_S2x2) bitsLt_bf16_f32) (constant S2000x2 .f32 0x00000000#32)))
    (broadcastTo S2000x2 (shapeCast S1x2 P6 shapeCasts_S1x2_S1x2) broadcasts_S1x2_S2000x2)

/-- Read at (r, j) it is c(r, j): each product the sum over its shared axis, each bias row read at j. -/
theorem preB_apply (r : Fin 2000) (j : Fin 2) : preB P0 P1 P3 P4 P5 P6 (ix2 r j) = cellB P0 P1 P3 P4 P5 P6 r j := by
  unfold preB cellB
  rw [addf_apply, addf_apply, addf_apply, dot_wide_apply, dot_small_apply, broadcastTo_1b_ab_apply, broadcastTo_1b_ab_apply]
  simp only [truncf_apply, shapeCast_self]

/-- The body's gate payload is the logistic function of scale · tanh(first column) + tanh(second column). -/
theorem pay4_eq : k0_pay4 (F := Ideal) P0 P1 P2 P3 P4 P5 P6
    = logistic (addf (mulf (shapeCast S2000x1 P2 shapeCasts_S2000x1_S2000x1)
        (extractStridedSlice S2000x1 ![0, 0] (tanh (preB P0 P1 P3 P4 P5 P6)) slices_S2000x2_o0_0_S2000x1))
        (extractStridedSlice S2000x1 ![0, 1] (tanh (preB P0 P1 P3 P4 P5 P6)) slices_S2000x2_o0_1_S2000x1)) := rfl

/-- THE GATE OF A BLOCK at row r (whatever the unit coordinate of the column it is kept in). -/
theorem pay4_apply (r : Fin 2000) (z : Fin 1) :
    k0_pay4 (F := Ideal) P0 P1 P2 P3 P4 P5 P6 (ix2 r z) = gateB P0 P1 P2 P3 P4 P5 P6 r := by
  obtain rfl : z = 0 := Subsingleton.elim _ _
  rw [pay4_eq, shapeCast_self]
  show Ideal.logistic (P2 (ix2 r 0)
      * extractStridedSlice S2000x1 ![0, 0] (tanh (preB P0 P1 P3 P4 P5 P6)) slices_S2000x2_o0_0_S2000x1 (ix2 r 0)
      + extractStridedSlice S2000x1 ![0, 1] (tanh (preB P0 P1 P3 P4 P5 P6)) slices_S2000x2_o0_1_S2000x1 (ix2 r 0)) = _
  rw [slice2_axis1_apply 0 _ _ r 0 (0 : Fin 2) rfl, slice2_axis1_apply 1 _ _ r 0 (1 : Fin 2) rfl]
  show Ideal.logistic (P2 (ix2 r 0) * Ideal.tanh (preB P0 P1 P3 P4 P5 P6 (ix2 r 0))
      + Ideal.tanh (preB P0 P1 P3 P4 P5 P6 (ix2 r 1))) = _
  rw [preB_apply, preB_apply]
  rfl

/-- THE DENSE PRODUCT OF A BLOCK at (r, q): row r of the block against column q of the effective weight. -/
theorem pay5_apply (r : Fin 2000) (q : Fin 256) :
    k0_pay5 (F := Ideal) P0 P8 (ix2 r q) = ∑ k : Fin 256, P0 (ix2 r k) * P8 (ix2 k q) := by
  have e : k0_pay5 (F := Ideal) P0 P8
      = FloatOps.matmul dot_S2000x256_S256x256_S2000x256_1_0_0_1_n_n none (truncf .bf16 P0 bitsLt_bf16_f32)
          (truncf .bf16 (shapeCast S256x256 P8 shapeCasts_S256x256_S256x256) bitsLt_bf16_f32)
          (constant S2000x256 .f32 0x00000000#32) := rfl
  rw [e, dot_dense_apply]
  simp only [truncf_apply, shapeCast_self]

end

end Cert.KernelIdeal.Block

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.Spec.lean ====
/-
  The right-hand side of the graph ODE, as one function of its argument arrays over the extended reals.

  For node r (50000 nodes) and feature q (256 features):

      f[r, q] = ((σ(r) · ½) · (ax[r, q] − x[r, q]) + Σ_k x[r, k] · w_eff[k, q]) − x[r, q] + x0[r, q],

  where ax is the neighbourhood aggregate of x and w_eff the effective dense weight (both enter here as arrays),
  and the gate σ(r) is the logistic function of  a[r] · tanh(c(r, 0)) + tanh(c(r, 1)),  with the recurrent cell's
  pre-activation

      c(r, j) = ((Σ_k x[r, k] · W[j, k] + b₁[j]) + Σ_k h[r, k] · U[j, k]) + b₂[j].

  Two spellings of the same function are given. `odeK` takes the small operands in the layout a blocked evaluation
  reads them in — the weights transposed, the biases as one-row matrices, the per-node scale as a column —, and
  `ode` takes them as the arguments come. `odeK_eq_ode` joins the two: a transposed matrix read at (k, j) is the
  matrix at (j, k), and a vector cast to a row or a column is read at its one free coordinate.
-/
import Idealize.ShloMosaic.PureOps.Ideal
import Idealize.ShloMosaic.PureOps.Ideal.Laws
import Idealize.ShloMosaic.Lib.ValueIdx
import Idealize.ShloMosaic.Lib.ValueLayout
import proofs.«167394_j44074954391861_1_alg».proof.Proof.LibColumn

noncomputable section

open scoped BigOperators

namespace Cert.OdeSpec

open Idealize.ShloMosaic Idealize.ShloMosaic.ValueIdx

/-- An a × b matrix of extended reals. -/
abbrev Mat (a b : Nat) : Type := FVec Ideal ⟨2, ![a, b]⟩ .f32
/-- A length-a vector of extended reals. -/
abbrev Row (a : Nat) : Type := FVec Ideal ⟨1, ![a]⟩ .f32

/-- The constant one half, as the pattern both programs write. -/
abbrev half : EReal := Ideal.ofBits .f32 0x3F000000#32

/-! ## With the small operands in blocked-evaluation layout -/

/-- The cell's pre-activation c(r, j), the weights given transposed and the biases as one-row matrices. -/
def cellK (X : Mat 50000 256) (H : Mat 50000 2) (WT : Mat 256 2) (UT : Mat 2 2) (B1 B2 : Mat 1 2)
    (r : Fin 50000) (j : Fin 2) : EReal :=
  (((∑ k : Fin 256, X (ix2 r k) * WT (ix2 k j)) + B1 (ix2 (0 : Fin 1) j))
    + (∑ k : Fin 2, H (ix2 r k) * UT (ix2 k j))) + B2 (ix2 (0 : Fin 1) j)

/-- The gate σ(r), the per-node scale given as a column. -/
def gateK (X : Mat 50000 256) (H : Mat 50000 2) (A : Mat 50000 1) (WT : Mat 256 2) (UT : Mat 2 2) (B1 B2 : Mat 1 2)
    (r : Fin 50000) : EReal :=
  Ideal.logistic (A (ix2 r (0 : Fin 1)) * Ideal.tanh (cellK X H WT UT B1 B2 r 0) + Ideal.tanh (cellK X H WT UT B1 B2 r 1))

/-- f[r, q] over the operands in blocked-evaluation layout. -/
def odeK (X X0 AX : Mat 50000 256) (H : Mat 50000 2) (A : Mat 50000 1) (WT : Mat 256 2) (UT : Mat 2 2)
    (B1 B2 : Mat 1 2) (Weff : Mat 256 256) : Mat 50000 256 := fun i =>
  (((gateK X H A WT UT B1 B2 (i 0) * half) * (AX i - X i) + ∑ k : Fin 256, X (ix2 (i 0) k) * Weff (ix2 k (i 1))) - X i) + X0 i

/-! ## With the operands as the arguments come -/

/-- The cell's pre-activation c(r, j). -/
def cell (X : Mat 50000 256) (H : Mat 50000 2) (W : Mat 2 256) (U : Mat 2 2) (b1 b2 : Row 2)
    (r : Fin 50000) (j : Fin 2) : EReal :=
  (((∑ k : Fin 256, X (ix2 r k) * W (ix2 j k)) + b1 (ix1 j))
    + (∑ k : Fin 2, H (ix2 r k) * U (ix2 j k))) + b2 (ix1 j)

/-- The gate σ(r). -/
def gate (X : Mat 50000 256) (H : Mat 50000 2) (a : Row 50000) (W : Mat 2 256) (U : Mat 2 2) (b1 b2 : Row 2)
    (r : Fin 50000) : EReal :=
  Ideal.logistic (a (ix1 r) * Ideal.tanh (cell X H W U b1 b2 r 0) + Ideal.tanh (cell X H W U b1 b2 r 1))

/-- f[r, q]. -/
def ode (X X0 AX : Mat 50000 256) (H : Mat 50000 2) (a : Row 50000) (W : Mat 2 256) (U : Mat 2 2)
    (b1 b2 : Row 2) (Weff : Mat 256 256) : Mat 50000 256 := fun i =>
  (((gate X H a W U b1 b2 (i 0) * half) * (AX i - X i) + ∑ k : Fin 256, X (ix2 (i 0) k) * Weff (ix2 k (i 1))) - X i) + X0 i

/-! ## The two spellings agree -/

/-- The blocked-evaluation layout of the small operands — W and U transposed, b₁ and b₂ cast to one-row matrices, a cast
    to a column — changes no entry that is read: `odeK` of the re-laid operands is `ode` of the operands. -/
theorem odeK_eq_ode (X X0 AX : Mat 50000 256) (H : Mat 50000 2) (a : Row 50000) (W : Mat 2 256) (U : Mat 2 2)
    (b1 b2 : Row 2) (Weff : Mat 256 256)
    (hA : (⟨1, ![50000]⟩ : Shape).ShapeCasts ⟨2, ![50000, 1]⟩)
    (hW : (⟨2, ![2, 256]⟩ : Shape).Transposes [1, 0] ⟨2, ![256, 2]⟩)
    (hU : (⟨2, ![2, 2]⟩ : Shape).Transposes [1, 0] ⟨2, ![2, 2]⟩)
    (hb : (⟨1, ![2]⟩ : Shape).ShapeCasts ⟨2, ![1, 2]⟩) :
    odeK X X0 AX H (shapeCast ⟨2, ![50000, 1]⟩ a hA) (transpose ⟨2, ![256, 2]⟩ [1, 0] W hW)
        (transpose ⟨2, ![2, 2]⟩ [1, 0] U hU) (shapeCast ⟨2, ![1, 2]⟩ b1 hb) (shapeCast ⟨2, ![1, 2]⟩ b2 hb) Weff
      = ode X X0 AX H a W U b1 b2 Weff := by
  have eW : ∀ (k : Fin 256) (j : Fin 2), transpose ⟨2, ![256, 2]⟩ [1, 0] W hW (ix2 k j) = W (ix2 j k) :=
    fun k j => transpose_ix2_apply W hW k j
  have eU : ∀ (k j : Fin 2), transpose ⟨2, ![2, 2]⟩ [1, 0] U hU (ix2 k j) = U (ix2 j k) :=
    fun k j => transpose_ix2_apply U hU k j
  funext i
  simp only [odeK, ode, gateK, gate, cellK, cell, shapeCast_a_1a_apply, eW, eU]
  rw [shapeCast_a_a1_apply a hA (i 0) 0]

end Cert.OdeSpec

end
-- ==== Proof.Block.lean ====
/-
  One entry of one block is one entry of f.

  A block holds 2000 consecutive nodes. If row r of the block's loaded operands is row R of the arrays — the state x
  along the whole row, the aggregate ax and the second state x0 at the entry, the hidden state h along its row, the
  scale at its row — and the small operands are loaded whole, then what the body leaves at (r, q) of the block is
  f[R, q] in the blocked-evaluation spelling `odeK`: the gate of the block's row is the gate of node R, and the dense
  product of the block's row is that of row R.
-/
import proofs.«167394_j44074954391861_1_alg».proof.Proof.Gen.KernelIdeal.Value
import proofs.«167394_j44074954391861_1_alg».proof.Proof.Gate
import proofs.«167394_j44074954391861_1_alg».proof.Proof.Spec

noncomputable section

open scoped BigOperators

namespace Cert.KernelIdeal.Block

open Cert.KernelIdeal Cert.KernelIdeal.Gen Idealize.ShloMosaic Idealize.ShloMosaic.ValueIdx Cert.OdeSpec

/-- What the body leaves at (r, q) of a block is f[R, q], when row r of the block's operands is row R of the arrays. -/
theorem block_entry
    (X X0 AX : Mat 50000 256) (H : Mat 50000 2) (A : Mat 50000 1) (WT : Mat 256 2) (UT : Mat 2 2) (B1 B2 : Mat 1 2)
    (Weff : Mat 256 256)
    (P0 P7 P9 : FVec Ideal S2000x256 .f32) (P1 : FVec Ideal S2000x2 .f32) (P2 : FVec Ideal S2000x1 .f32)
    (P3 : FVec Ideal S256x2 .f32) (P4 : FVec Ideal S2x2 .f32) (P5 P6 : FVec Ideal S1x2 .f32) (P8 : FVec Ideal S256x256 .f32)
    (r : Fin 2000) (q : Fin 256) (R : Fin 50000)
    (h0 : ∀ k : Fin 256, P0 (ix2 r k) = X (ix2 R k)) (h9 : P9 (ix2 r q) = X0 (ix2 R q))
    (h7 : P7 (ix2 r q) = AX (ix2 R q)) (h1 : ∀ k : Fin 2, P1 (ix2 r k) = H (ix2 R k))
    (h2 : P2 (ix2 r (0 : Fin 1)) = A (ix2 R (0 : Fin 1)))
    (h3 : ∀ y, P3 y = WT y) (h4 : ∀ y, P4 y = UT y) (h5 : ∀ y, P5 y = B1 y) (h6 : ∀ y, P6 y = B2 y)
    (h8 : ∀ y, P8 y = Weff y) :
    Cert.KernelIdeal.Value.E10 (F := Ideal) P0 P1 P2 P3 P4 P5 P6 P7 P8 P9 (ix2 r q)
      = odeK X X0 AX H A WT UT B1 B2 Weff (ix2 R q) := by
  obtain rfl : P3 = WT := funext h3
  obtain rfl : P4 = UT := funext h4
  obtain rfl : P5 = B1 := funext h5
  obtain rfl : P6 = B2 := funext h6
  obtain rfl : P8 = Weff := funext h8
  have i0 : Cert.KernelIdeal.Value.ix10_0 (ix2 r q) = ix2 r (0 : Fin 1) :=
    funext fun a => Fin.ext (by match a with | ⟨0, _⟩ => rfl | ⟨1, _⟩ => rfl)
  have i1 : Cert.KernelIdeal.Value.ix10_1 (ix2 r q) = ix2 r q :=
    funext fun a => Fin.ext (by match a with | ⟨0, _⟩ => rfl | ⟨1, _⟩ => rfl)
  have i2 : Cert.KernelIdeal.Value.ix10_2 (ix2 r q) = ix2 r q :=
    funext fun a => Fin.ext (by match a with | ⟨0, _⟩ => rfl | ⟨1, _⟩ => rfl)
  have i3 : Cert.KernelIdeal.Value.ix10_3 (ix2 r q) = ix2 r q :=
    funext fun a => Fin.ext (by match a with | ⟨0, _⟩ => rfl | ⟨1, _⟩ => rfl)
  have i4 : Cert.KernelIdeal.Value.ix10_4 (ix2 r q) = ix2 r q :=
    funext fun a => Fin.ext (by match a with | ⟨0, _⟩ => rfl | ⟨1, _⟩ => rfl)
  have i5 : Cert.KernelIdeal.Value.ix10_5 (ix2 r q) = ix2 r q :=
    funext fun a => Fin.ext (by match a with | ⟨0, _⟩ => rfl | ⟨1, _⟩ => rfl)
  have hg : gateB P0 P1 P2 P3 P4 P5 P6 r = gateK X H A P3 P4 P5 P6 R := by
    simp only [gateB, cellB, gateK, cellK, h0, h1, h2]
  have hd : (∑ k : Fin 256, P0 (ix2 r k) * P8 (ix2 k q)) = ∑ k : Fin 256, X (ix2 R k) * P8 (ix2 k q) := by
    simp only [h0]
  show (((k0_pay4 (F := Ideal) P0 P1 P2 P3 P4 P5 P6 (Cert.KernelIdeal.Value.ix10_0 (ix2 r q)) * half)
        * (P7 (Cert.KernelIdeal.Value.ix10_1 (ix2 r q)) - P0 (Cert.KernelIdeal.Value.ix10_2 (ix2 r q)))
      + k0_pay5 (F := Ideal) P0 P8 (Cert.KernelIdeal.Value.ix10_3 (ix2 r q)))
      - P0 (Cert.KernelIdeal.Value.ix10_4 (ix2 r q))) + P9 (Cert.KernelIdeal.Value.ix10_5 (ix2 r q)) = _
  rw [i0, i1, i2, i3, i4, i5, pay4_apply, pay5_apply, hg, hd, h7, h9, h0 q]
  rfl

end Cert.KernelIdeal.Block

end
-- ==== Proof.Blocks.lean ====
/-
  From blocks to the array: after the 25 blocks are evaluated the result array holds f, entry by entry.

  Block t holds nodes 2000·t … 2000·t + 1999. The state, the aggregate, the second state, the hidden state and the
  scale move with the output block along the nodes; the transposed weights, the bias rows and the effective weight
  are loaded whole at every block. So what block t writes back is block t of f (each of its entries is an entry of f:
  `block_entry`), the 25 blocks tile the 50000 nodes (node R lies in block R / 2000), and the array ends holding f.
-/
import proofs.«167394_j44074954391861_1_alg».proof.Proof.Gen.KernelIdeal.Value
import proofs.«167394_j44074954391861_1_alg».proof.Proof.Block

noncomputable section

open scoped BigOperators

namespace Cert.KernelIdeal.Blocks

open Cert.KernelIdeal Cert.KernelIdeal.Gen Idealize.ShloMosaic Idealize.ShloMosaic.TcCoe Idealize.SL.Sem Idealize.ShloMosaic.ValueIdx
open Cert.OdeSpec Cert.KernelIdeal.Block
open Idealize.ShloMosaic.Pipeline (Dat)

variable (m : (ℓ : Loc nD τ sig) → Buf (Elt Ideal) ℓ) (ρ : Dev nD → PrngReg)

/-- Every load and the store of the body go through the whole staging buffer, at offset zero. -/
theorem off_zero : (![0, 0] : Fin 2 → Nat) = fun _ => 0 := funext fun a => by fin_cases a <;> rfl

/-- Where each window's block sits at grid point t, decided over the 25 points: the five node-indexed inputs sit at the
    output's block of nodes, every window's second block index is zero, and the five small operands always sit at
    block (0, 0). -/
theorem idx_facts : ∀ t : Fin cfg0.N,
    win0_0.index t (0 : Fin 2) = win0_10.index t (0 : Fin 2)
    ∧ win0_0.index t (1 : Fin 2) = 0
    ∧ win0_1.index t (0 : Fin 2) = win0_10.index t (0 : Fin 2)
    ∧ win0_1.index t (1 : Fin 2) = 0
    ∧ win0_2.index t (0 : Fin 2) = win0_10.index t (0 : Fin 2)
    ∧ win0_2.index t (1 : Fin 2) = 0
    ∧ win0_3.index t (0 : Fin 2) = win0_10.index t (0 : Fin 2)
    ∧ win0_3.index t (1 : Fin 2) = 0
    ∧ win0_4.index t (0 : Fin 2) = win0_10.index t (0 : Fin 2)
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (1 : Fin 2) = 0
    ∧ win0_10.index t (0 : Fin 2) ≤ 24 :=
  (by decide +kernel : ∀ t : Fin grid0.N, _)

/-- Every block of nodes is some grid point's. -/
theorem idx_onto : ∀ (b : Fin 25), ∃ t : Fin cfg0.N, win0_10.index t = ![b.val, 0] :=
  (by decide +kernel : ∀ (b : Fin 25), ∃ t : Fin grid0.N, win0_10.index t = ![b.val, 0])

/-- f over the arrays as the blocked evaluation finds them. -/
abbrev found (c : Dev nD) : Mat 50000 256 := odeK (V m c main_arg1) (V m c main_arg2) (V m c main_v12) (V m c main_arg6) (V m c main_v23) (V m c main_v19) (V m c main_v20) (V m c main_v21) (V m c main_v22) (V m c main_v18)

/-! ## Each window's block at grid point t, read off its array -/

/-- Row r of block t of the state x is row 2000·t + r of x. -/
theorem blk_x (c : Dev nD) (t : Fin cfg0.N) (r : Fin 2000) (R : Fin 50000)
    (hR : R.val = win0_10.index t (0 : Fin 2) * 2000 + r.val) (k : Fin 256) :
    iblk m c 0 t (ix2 r k) = V m c main_arg1 (ix2 R k) := by
  obtain ⟨e0, e1, e2, e3, e4, e5, e6, e7, e8, e9, e10, e11, e12, e13, e14, e15, e16, e17, e18, e19, e20, e21⟩ := idx_facts t
  exact congrArg (V m c main_arg1) (funext fun a => Fin.ext (by
    match a with
    | ⟨0, _⟩ => show win0_0.index t (0 : Fin 2) * 2000 + 1 * r.val = R.val; omega
    | ⟨1, _⟩ => show win0_0.index t (1 : Fin 2) * 256 + 1 * k.val = k.val; omega))

/-- Row r of block t of the second state x0 is row 2000·t + r of x0. -/
theorem blk_x0 (c : Dev nD) (t : Fin cfg0.N) (r : Fin 2000) (R : Fin 50000)
    (hR : R.val = win0_10.index t (0 : Fin 2) * 2000 + r.val) (k : Fin 256) :
    iblk m c 1 t (ix2 r k) = V m c main_arg2 (ix2 R k) := by
  obtain ⟨e0, e1, e2, e3, e4, e5, e6, e7, e8, e9, e10, e11, e12, e13, e14, e15, e16, e17, e18, e19, e20, e21⟩ := idx_facts t
  exact congrArg (V m c main_arg2) (funext fun a => Fin.ext (by
    match a with
    | ⟨0, _⟩ => show win0_1.index t (0 : Fin 2) * 2000 + 1 * r.val = R.val; omega
    | ⟨1, _⟩ => show win0_1.index t (1 : Fin 2) * 256 + 1 * k.val = k.val; omega))

/-- Row r of block t of the aggregate is row 2000·t + r of the aggregate. -/
theorem blk_ax (c : Dev nD) (t : Fin cfg0.N) (r : Fin 2000) (R : Fin 50000)
    (hR : R.val = win0_10.index t (0 : Fin 2) * 2000 + r.val) (k : Fin 256) :
    iblk m c 2 t (ix2 r k) = V m c main_v12 (ix2 R k) := by
  obtain ⟨e0, e1, e2, e3, e4, e5, e6, e7, e8, e9, e10, e11, e12, e13, e14, e15, e16, e17, e18, e19, e20, e21⟩ := idx_facts t
  exact congrArg (V m c main_v12) (funext fun a => Fin.ext (by
    match a with
    | ⟨0, _⟩ => show win0_2.index t (0 : Fin 2) * 2000 + 1 * r.val = R.val; omega
    | ⟨1, _⟩ => show win0_2.index t (1 : Fin 2) * 256 + 1 * k.val = k.val; omega))

/-- Row r of block t of the hidden state is row 2000·t + r of it. -/
theorem blk_h (c : Dev nD) (t : Fin cfg0.N) (r : Fin 2000) (R : Fin 50000)
    (hR : R.val = win0_10.index t (0 : Fin 2) * 2000 + r.val) (k : Fin 2) :
    iblk m c 3 t (ix2 r k) = V m c main_arg6 (ix2 R k) := by
  obtain ⟨e0, e1, e2, e3, e4, e5, e6, e7, e8, e9, e10, e11, e12, e13, e14, e15, e16, e17, e18, e19, e20, e21⟩ := idx_facts t
  exact congrArg (V m c main_arg6) (funext fun a => Fin.ext (by
    match a with
    | ⟨0, _⟩ => show win0_3.index t (0 : Fin 2) * 2000 + 1 * r.val = R.val; omega
    | ⟨1, _⟩ => show win0_3.index t (1 : Fin 2) * 2 + 1 * k.val = k.val; omega))

/-- Row r of block t of the scale column is row 2000·t + r of it. -/
theorem blk_scale (c : Dev nD) (t : Fin cfg0.N) (r : Fin 2000) (R : Fin 50000)
    (hR : R.val = win0_10.index t (0 : Fin 2) * 2000 + r.val) (k : Fin 1) :
    iblk m c 4 t (ix2 r k) = V m c main_v23 (ix2 R k) := by
  obtain ⟨e0, e1, e2, e3, e4, e5, e6, e7, e8, e9, e10, e11, e12, e13, e14, e15, e16, e17, e18, e19, e20, e21⟩ := idx_facts t
  exact congrArg (V m c main_v23) (funext fun a => Fin.ext (by
    match a with
    | ⟨0, _⟩ => show win0_4.index t (0 : Fin 2) * 2000 + 1 * r.val = R.val; omega
    | ⟨1, _⟩ => show win0_4.index t (1 : Fin 2) * 1 + 1 * k.val = k.val; omega))

/-- The transposed input weights are loaded whole at every block. -/
theorem blk_wih (c : Dev nD) (t : Fin cfg0.N) (y : S256x2.Idx) : iblk m c 5 t y = V m c main_v19 y := by
  obtain ⟨e0, e1, e2, e3, e4, e5, e6, e7, e8, e9, e10, e11, e12, e13, e14, e15, e16, e17, e18, e19, e20, e21⟩ := idx_facts t
  exact congrArg (V m c main_v19) (funext fun a => Fin.ext (by
    match a with
    | ⟨0, _⟩ => show win0_5.index t (0 : Fin 2) * 256 + 1 * (y 0).val = (y 0).val; omega
    | ⟨1, _⟩ => show win0_5.index t (1 : Fin 2) * 2 + 1 * (y 1).val = (y 1).val; omega))

/-- The transposed recurrent weights are loaded whole at every block. -/
theorem blk_whh (c : Dev nD) (t : Fin cfg0.N) (y : S2x2.Idx) : iblk m c 6 t y = V m c main_v20 y := by
  obtain ⟨e0, e1, e2, e3, e4, e5, e6, e7, e8, e9, e10, e11, e12, e13, e14, e15, e16, e17, e18, e19, e20, e21⟩ := idx_facts t
  exact congrArg (V m c main_v20) (funext fun a => Fin.ext (by
    match a with
    | ⟨0, _⟩ => show win0_6.index t (0 : Fin 2) * 2 + 1 * (y 0).val = (y 0).val; omega
    | ⟨1, _⟩ => show win0_6.index t (1 : Fin 2) * 2 + 1 * (y 1).val = (y 1).val; omega))

/-- The input bias row is loaded whole at every block. -/
theorem blk_bih (c : Dev nD) (t : Fin cfg0.N) (y : S1x2.Idx) : iblk m c 7 t y = V m c main_v21 y := by
  obtain ⟨e0, e1, e2, e3, e4, e5, e6, e7, e8, e9, e10, e11, e12, e13, e14, e15, e16, e17, e18, e19, e20, e21⟩ := idx_facts t
  exact congrArg (V m c main_v21) (funext fun a => Fin.ext (by
    match a with
    | ⟨0, _⟩ => show win0_7.index t (0 : Fin 2) * 1 + 1 * (y 0).val = (y 0).val; omega
    | ⟨1, _⟩ => show win0_7.index t (1 : Fin 2) * 2 + 1 * (y 1).val = (y 1).val; omega))

/-- The recurrent bias row is loaded whole at every block. -/
theorem blk_bhh (c : Dev nD) (t : Fin cfg0.N) (y : S1x2.Idx) : iblk m c 8 t y = V m c main_v22 y := by
  obtain ⟨e0, e1, e2, e3, e4, e5, e6, e7, e8, e9, e10, e11, e12, e13, e14, e15, e16, e17, e18, e19, e20, e21⟩ := idx_facts t
  exact congrArg (V m c main_v22) (funext fun a => Fin.ext (by
    match a with
    | ⟨0, _⟩ => show win0_8.index t (0 : Fin 2) * 1 + 1 * (y 0).val = (y 0).val; omega
    | ⟨1, _⟩ => show win0_8.index t (1 : Fin 2) * 2 + 1 * (y 1).val = (y 1).val; omega))

/-- The effective weight is loaded whole at every block. -/
theorem blk_weff (c : Dev nD) (t : Fin cfg0.N) (y : S256x256.Idx) : iblk m c 9 t y = V m c main_v18 y := by
  obtain ⟨e0, e1, e2, e3, e4, e5, e6, e7, e8, e9, e10, e11, e12, e13, e14, e15, e16, e17, e18, e19, e20, e21⟩ := idx_facts t
  exact congrArg (V m c main_v18) (funext fun a => Fin.ext (by
    match a with
    | ⟨0, _⟩ => show win0_9.index t (0 : Fin 2) * 256 + 1 * (y 0).val = (y 0).val; omega
    | ⟨1, _⟩ => show win0_9.index t (1 : Fin 2) * 256 + 1 * (y 1).val = (y 1).val; omega))

/-! ## What a block writes back -/

/-- Entry J of what the body leaves of block t is entry I of f, when I is J moved 2000·t nodes along. -/
theorem body_entry (c : Dev nD) (t : Fin cfg0.N) (J : S2000x256.Idx) (I : S50000x256.Idx)
    (hI0 : (I 0).val = win0_10.index t (0 : Fin 2) * 2000 + (J 0).val) (hI1 : (I 1).val = (J 1).val) :
    out0_10 (iblk m c 0 t) (iblk m c 1 t) (iblk m c 2 t) (iblk m c 3 t) (iblk m c 4 t) (iblk m c 5 t) (iblk m c 6 t)
      (iblk m c 7 t) (iblk m c 8 t) (iblk m c 9 t) J = found m c I := by
  obtain ⟨r, q, rfl⟩ : ∃ (r : Fin 2000) (q : Fin 256), J = ix2 r q := ⟨J 0, J 1, eq_ix2 J⟩
  obtain ⟨R, Q, rfl⟩ : ∃ (R : Fin 50000) (Q : Fin 256), I = ix2 R Q := ⟨I 0, I 1, eq_ix2 I⟩
  obtain rfl : q = Q := Fin.ext hI1.symm
  have hR : R.val = win0_10.index t (0 : Fin 2) * 2000 + r.val := hI0
  unfold out0_10
  simp only [View.ld_unit_zero (S := S2000x256) off_zero, View.ld_unit_zero (S := S2000x2) off_zero,
    View.ld_unit_zero (S := S2000x1) off_zero, View.ld_unit_zero (S := S256x2) off_zero,
    View.ld_unit_zero (S := S2x2) off_zero, View.ld_unit_zero (S := S1x2) off_zero,
    View.ld_unit_zero (S := S256x256) off_zero]
  refine (Cert.KernelIdeal.Value.canon10_eq (F := Ideal) _ _ _ _ _ _ _ _ _ _ (ix2 r q)).trans ?_
  exact block_entry (V m c main_arg1) (V m c main_arg2) (V m c main_v12) (V m c main_arg6) (V m c main_v23) (V m c main_v19) (V m c main_v20) (V m c main_v21) (V m c main_v22) (V m c main_v18)
    (iblk m c 0 t) (iblk m c 2 t) (iblk m c 1 t) (iblk m c 3 t) (iblk m c 4 t) (iblk m c 5 t) (iblk m c 6 t)
    (iblk m c 7 t) (iblk m c 8 t) (iblk m c 9 t) r q R
    (blk_x m c t r R hR) (blk_x0 m c t r R hR q) (blk_ax m c t r R hR q) (blk_h m c t r R hR) (blk_scale m c t r R hR 0)
    (blk_wih m c t) (blk_whh m c t) (blk_bih m c t) (blk_bhh m c t) (blk_weff m c t)

/-- WHAT BLOCK t WRITES BACK is block t of f. -/
theorem flushed_eq (c : Dev nD) (t : Fin cfg0.N) :
    (dats m 0 c).flushed 10 t = ((cfg0.win 10).blk t).view.read (Elt Ideal) (found m c) := by
  obtain ⟨e0, e1, e2, e3, e4, e5, e6, e7, e8, e9, e10, e11, e12, e13, e14, e15, e16, e17, e18, e19, e20, e21⟩ := idx_facts t
  rw [Cert.KernelIdeal.Value.flushed10]
  funext j
  exact body_entry m c t _ _ (by show win0_10.index t (0 : Fin 2) * 2000 + 1 * (j 0).val = win0_10.index t (0 : Fin 2) * 2000 + (j 0).val; omega)
    (by show win0_10.index t (1 : Fin 2) * 256 + 1 * (j 1).val = (j 1).val; omega)

/-- An index of the array is in block t iff each coordinate is in the block's range on its axis. -/
theorem mem_blk (t : Fin cfg0.N) (i : S50000x256.Idx) :
    i ∈ ((cfg0.win 10).blk t).view.set ↔ ∀ a : Fin 2, win0_10.index t a * S2000x256.size a ≤ (i a).val
      ∧ (i a).val < win0_10.index t a * S2000x256.size a + S2000x256.size a := by
  show i ∈ ((View.whole main_v24).slice (win0_10.rect t)).set ↔ _
  rw [View.set_slice_whole, Rect.mem_set_unit]
  exact Iff.rfl

/-- THE BLOCKS TILE THE ARRAY: node R lies in the block numbered R / 2000. -/
theorem cover (i : S50000x256.Idx) :
    ∃ t : Fin cfg0.N, (cfg0.win 10).flush t = true ∧ i ∈ ((cfg0.win 10).blk t).view.set := by
  have hi0 : (i 0).val < 50000 := (i 0).isLt
  have hi1 : (i 1).val < 256 := (i 1).isLt
  obtain ⟨t, ht⟩ := idx_onto ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 256 ≤ (i 1).val ∧ (i 1).val < win0_10.index t (1 : Fin 2) * 256 + 256; omega

/-- THE ARRAY after the run is f over the arrays the blocked evaluation found. -/
theorem final (c : Dev nD) : (dats m 0 c).arrAt 10 cfg0.N = found m c :=
  (dats m 0 c).arrAt_eq_of_cover 10 (found m c) (fun t _ => flushed_eq m c t) cover

end Cert.KernelIdeal.Blocks

end
-- ==== Proof.HostSide.lean ====
/-
  What the blocked evaluation finds in the arrays the host prepares for it.

  Before the blocks are evaluated the host computes, from the arguments alone: the aggregate ax (gather the rows of x
  named by the edges' sources, scale each by its edge weight, add them up at the edges' targets), the effective weight
  (w with its columns scaled by d clamped to [0, 1], times w transposed), the two weight matrices transposed, the two
  biases as one-row matrices and the per-node scale as a column. Each is read off the host's operations; the aggregate
  and the effective weight are, operation for operation, the terms the reference builds from the same arguments.
-/
import proofs.«167394_j44074954391861_1_alg».proof.Proof.Gen.KernelIdeal.Value
import proofs.«167394_j44074954391861_1_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The per-node scale as a column. -/
theorem V_scale (c : Dev nD) : (V m c main_v23 : S50000x1.Idx → EReal)
    = shapeCast S50000x1 (m ((c : Thread nD τ).loc main_arg7)) shapeCasts_S50000_S50000x1 := by
  dsimp only [V]
  simp only [hostOps0, hostOps0_1, hostOps0_2, List.flatten_cons, List.flatten_nil, List.append_nil, List.cons_append, List.nil_append]
  after_results
  rfl

/-- The input weights transposed. -/
theorem V_wih (c : Dev nD) : (V m c main_v19 : S256x2.Idx → EReal)
    = transpose S256x2 [1, 0] (m ((c : Thread nD τ).loc main_arg8)) transposes_S2x256_S256x2_1_0 := by
  dsimp only [V]
  simp only [hostOps0, hostOps0_1, hostOps0_2, List.flatten_cons, List.flatten_nil, List.append_nil, List.cons_append, List.nil_append]
  after_results

/-- The recurrent weights transposed. -/
theorem V_whh (c : Dev nD) : (V m c main_v20 : S2x2.Idx → EReal)
    = transpose S2x2 [1, 0] (m ((c : Thread nD τ).loc main_arg9)) transposes_S2x2_S2x2_1_0 := by
  dsimp only [V]
  simp only [hostOps0, hostOps0_1, hostOps0_2, List.flatten_cons, List.flatten_nil, List.append_nil, List.cons_append, List.nil_append]
  after_results

/-- The input bias as a one-row matrix. -/
theorem V_bih (c : Dev nD) : (V m c main_v21 : S1x2.Idx → EReal)
    = shapeCast S1x2 (m ((c : Thread nD τ).loc main_arg10)) shapeCasts_S2_S1x2 := by
  dsimp only [V]
  simp only [hostOps0, hostOps0_1, hostOps0_2, List.flatten_cons, List.flatten_nil, List.append_nil, List.cons_append, List.nil_append]
  after_results
  rfl

/-- The recurrent bias as a one-row matrix. -/
theorem V_bhh (c : Dev nD) : (V m c main_v22 : S1x2.Idx → EReal)
    = shapeCast S1x2 (m ((c : Thread nD τ).loc main_arg11)) shapeCasts_S2_S1x2 := by
  dsimp only [V]
  simp only [hostOps0, hostOps0_1, hostOps0_2, List.flatten_cons, List.flatten_nil, List.append_nil, List.cons_append, List.nil_append]
  after_results
  rfl

/-- The aggregate: the same gather, scaling and scatter-add of the same arguments as the reference's. -/
theorem V_ax (c : Dev nD) : (V m c main_v12 : S50000x256.Idx → EReal)
    = Cert.ReferenceIdeal.Read.val_main_v37 (F := Ideal) (m ((c : Thread nD τ).loc main_arg1)) (m ((c : Thread nD τ).loc main_arg3)) (m ((c : Thread nD τ).loc main_arg4)) (m ((c : Thread nD τ).loc main_arg5)) := by
  dsimp only [V]
  simp only [hostOps0, hostOps0_1, hostOps0_2, List.flatten_cons, List.flatten_nil, List.append_nil, List.cons_append, List.nil_append]
  after_results_simp
  rfl

/-- The effective weight: the same clamp, column scaling and product of the same arguments as the reference's. -/
theorem V_weff (c : Dev nD) : (V m c main_v18 : S256x256.Idx → EReal)
    = Cert.ReferenceIdeal.Read.val_main_v43 (F := Ideal) (m ((c : Thread nD τ).loc main_arg12)) (m ((c : Thread nD τ).loc main_arg13)) := by
  dsimp only [V]
  simp only [hostOps0, hostOps0_1, hostOps0_2, List.flatten_cons, List.flatten_nil, List.append_nil, List.cons_append, List.nil_append]
  after_results_simp
  rfl

end Cert.KernelIdeal.HostSide

end
-- ==== Proof.KernelValue.lean ====
/-
  The blocked evaluation's result is f of the arguments.

  The arrays the blocks were evaluated over are the arguments themselves (no host operation writes them) and the
  arrays the host prepared from them; with those read off, the result array holds `odeK` of the re-laid small
  operands, which is `ode` of the operands as they come. The run of the whole program is then re-stated with the
  result array at f of the argument arrays and the arguments unchanged.
-/
import proofs.«167394_j44074954391861_1_alg».proof.Proof.Blocks
import proofs.«167394_j44074954391861_1_alg».proof.Proof.HostSide

noncomputable section

namespace Cert.KernelIdeal.Blocks

open Cert.KernelIdeal Cert.KernelIdeal.Gen Idealize.ShloMosaic Idealize.ShloMosaic.TcCoe Idealize.SL.Sem Idealize.ShloMosaic.ValueIdx
open Cert.OdeSpec

variable (m : (ℓ : Loc nD τ sig) → Buf (Elt Ideal) ℓ) (ρ : Dev nD → PrngReg)

/-- f of the argument arrays of device c: the aggregate and the effective weight as the terms the reference builds
    from the same arguments. -/
abbrev result (c : Dev nD) : Mat 50000 256 :=
  ode (m ((c : Thread nD τ).loc main_arg1)) (m ((c : Thread nD τ).loc main_arg2))
    (Cert.ReferenceIdeal.Read.val_main_v37 (F := Ideal) (m ((c : Thread nD τ).loc main_arg1)) (m ((c : Thread nD τ).loc main_arg3)) (m ((c : Thread nD τ).loc main_arg4)) (m ((c : Thread nD τ).loc main_arg5)))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (Cert.ReferenceIdeal.Read.val_main_v43 (F := Ideal) (m ((c : Thread nD τ).loc main_arg12)) (m ((c : Thread nD τ).loc main_arg13)))

/-- What the blocks were evaluated over, read off: f in the blocked-evaluation spelling is f of the arguments. -/
theorem found_eq (c : Dev nD) : found m c = result m c := by
  unfold found result
  rw [V_main_arg1 m c, V_main_arg2 m c, V_main_arg6 m c, HostSide.V_ax m c, HostSide.V_scale m c, HostSide.V_wih m c,
    HostSide.V_whh m c, HostSide.V_bih m c, HostSide.V_bhh m c, HostSide.V_weff m c]
  exact odeK_eq_ode _ _ _ _ _ _ _ _ _ _ _ _ _ _

/-- THE RUN: every weakly fair execution terminates with the result array at f of the arguments, the arguments
    unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans ((final m c).trans (found_eq m c)), (h c).2⟩)
    (Cert.KernelIdeal.Value.run_blocks m ρ)

end Cert.KernelIdeal.Blocks

end
-- ==== Proof.RefValue.lean ====
/-
  The reference's result, read entry by entry, is the function `ode` of the arguments.

  The reference evaluates the cell's two pre-activations as matrix products against the transposed weights plus
  broadcast biases, cuts the two columns of their hyperbolic tangents, combines them with the per-node scale into the
  gate's argument u, forms 1 / (1 + e^(−u)) — which on the extended reals is the logistic function of u, the
  pattern of 1.0 being the number one —, and then mixes the aggregate, the dense product and the two state arrays
  entry by entry. Each step is read at an index; what remains is to identify the composed index maps with plain
  coordinates.
-/
import proofs.«167394_j44074954391861_1_alg».proof.Proof.Gen.ReferenceIdeal.Read
import proofs.«167394_j44074954391861_1_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx

variable (x1 x2 : (⟨S50000x256, .f32⟩ : BufTy).Contents (Elt Ideal)) (x3 x4 : (⟨S400000, .i32⟩ : BufTy).Contents (Elt Ideal)) (x5 : (⟨S400000, .f32⟩ : BufTy).Contents (Elt Ideal))
  (x6 : (⟨S50000x2, .f32⟩ : BufTy).Contents (Elt Ideal)) (x7 : (⟨S50000, .f32⟩ : BufTy).Contents (Elt Ideal)) (x8 : (⟨S2x256, .f32⟩ : BufTy).Contents (Elt Ideal)) (x9 : (⟨S2x2, .f32⟩ : BufTy).Contents (Elt Ideal))
  (x10 x11 : (⟨S2, .f32⟩ : BufTy).Contents (Elt Ideal)) (x12 : (⟨S256x256, .f32⟩ : BufTy).Contents (Elt Ideal)) (x13 : (⟨S256, .f32⟩ : BufTy).Contents (Elt Ideal))

/-- The cell's pre-activation before the tangent, at (r, j): the two products read as sums over the shared axis, the
    transposed weights read at the swapped coordinates, the biases at j. -/
theorem preact_apply (r : Fin 50000) (j : Fin 2) :
    val_main_v10 (F := Ideal) x1 x6 x8 x9 x10 x11 (ix2 r j) = Cert.OdeSpec.cell x1 x6 x8 x9 x10 x11 r j := by
  have l1 : ∀ k : Fin 256, lidx_main_v1 (ix2 r j) k = ix2 r k := fun k =>
    funext fun a => by match a with | ⟨0, _⟩ => rfl | ⟨1, _⟩ => rfl
  have r1 : ∀ k : Fin 256, idx_main_v0 (ridx_main_v1 (ix2 r j) k) = ix2 j k := fun k =>
    funext fun a => by match a with | ⟨0, _⟩ => rfl | ⟨1, _⟩ => rfl
  have l6 : ∀ k : Fin 2, lidx_main_v6 (ix2 r j) k = ix2 r k := fun k =>
    funext fun a => by match a with | ⟨0, _⟩ => rfl | ⟨1, _⟩ => rfl
  have r6 : ∀ k : Fin 2, idx_main_v5 (ridx_main_v6 (ix2 r j) k) = ix2 j k := fun k =>
    funext fun a => by match a with | ⟨0, _⟩ => rfl | ⟨1, _⟩ => rfl
  have b3 : idx_main_v2 (idx_main_v3 (ix2 r j)) = ix1 j :=
    funext fun a => by match a with | ⟨0, _⟩ => rfl
  have b9 : idx_main_v8 (idx_main_v9 (ix2 r j)) = ix1 j :=
    funext fun a => by match a with | ⟨0, _⟩ => rfl
  rw [val_main_v10_apply, val_main_v7_apply, val_main_v4_apply, val_main_v1_apply, val_main_v6_apply, val_main_v3_apply,
    val_main_v2_apply, val_main_v9_apply, val_main_v8_apply]
  simp only [val_main_v0_apply, val_main_v5_apply, l1, r1, l6, r6, b3, b9]
  rfl

/-- The gate at node r: the two columns of the tangent cut at r, the scale a[r], and 1 / (1 + e^(−u)) read as the
    logistic function (the pattern of 1.0 denotes the number one). -/
theorem gate_apply (r : Fin 50000) :
    val_main_v23 (F := Ideal) x1 x6 x7 x8 x9 x10 x11 (ix1 r) = Cert.OdeSpec.gate x1 x6 x7 x8 x9 x10 x11 r := by
  have c0 : idx_main_v12 (idx_main_v13 (ix1 r)) = ix2 r (0 : Fin 2) :=
    funext fun a => Fin.ext (by match a with | ⟨0, _⟩ => exact Nat.div_one _ | ⟨1, _⟩ => rfl)
  have c1 : idx_main_v14 (idx_main_v15 (ix1 r)) = ix2 r (1 : Fin 2) :=
    funext fun a => Fin.ext (by match a with | ⟨0, _⟩ => exact Nat.div_one _ | ⟨1, _⟩ => rfl)
  simp only [val_main_v23_apply, val_main_v22_apply, val_main_cst_0_apply, val_main_v21_apply, val_main_v20_apply,
    val_main_cst_apply, val_main_v19_apply, val_main_v18_apply, val_main_v17_apply, val_main_v16_apply,
    val_main_v13_apply, val_main_v12_apply, val_main_v15_apply, val_main_v14_apply, val_main_v11_apply, c0, c1]
  rw [preact_apply, preact_apply]
  unfold Cert.OdeSpec.gate
  simp only [Ideal.ofBits_def, Ideal.ofBits_one_f32]
  rfl

/-- THE REFERENCE IS `ode`: its result, entry by entry, is f of the arguments, of the aggregate it scatters and of
    the effective weight it multiplies out — the gate broadcast along the features, the dense product read as a sum over
    the shared axis. -/
theorem ref_is_ode :
    val_main_v52 (F := Ideal) x1 x2 x3 x4 x5 x6 x7 x8 x9 x10 x11 x12 x13
      = Cert.OdeSpec.ode x1 x2 (val_main_v37 (F := Ideal) x1 x3 x4 x5) x6 x7 x8 x9 x10 x11 (val_main_v43 (F := Ideal) x12 x13) := by
  funext i
  obtain ⟨r, q, rfl⟩ : ∃ (r : Fin 50000) (q : Fin 256), i = ix2 r q := ⟨i 0, i 1, eq_ix2 i⟩
  have g : idx_main_v24 (idx_main_v48 (ix2 r q)) = ix1 r :=
    funext fun a => by match a with | ⟨0, _⟩ => rfl
  have l : ∀ k : Fin 256, lidx_main_v44 (ix2 r q) k = ix2 r k := fun k =>
    funext fun a => by match a with | ⟨0, _⟩ => rfl | ⟨1, _⟩ => rfl
  have rr : ∀ k : Fin 256, ridx_main_v44 (ix2 r q) k = ix2 k q := fun k =>
    funext fun a => by match a with | ⟨0, _⟩ => rfl | ⟨1, _⟩ => rfl
  simp only [val_main_v52_apply, val_main_v51_apply, val_main_v50_apply, val_main_v49_apply, val_main_v48_apply,
    val_main_v47_apply, val_main_v46_apply, val_main_v45_apply, val_main_cst_5_apply, val_main_v44_apply,
    val_main_v24_apply, g, l, rr]
  rw [gate_apply]
  rfl

end Cert.ReferenceIdeal.RefValue

end
-- ==== Proof.lean ====
/-
  The right-hand side of a graph ODE, evaluated in 25 blocks of 2000 nodes, against its plain reference.

  Both programs compute, for 50000 nodes with 256 features,

      f = σ · ½ · (ax − x) + x · w_eff − x + x0,

  where ax is the neighbourhood aggregate of x over 400000 weighted edges (gather, scale, scatter-add), w_eff is
  (w with its columns scaled by d clamped to [0, 1]) · wᵀ, and σ is the per-node gate: the logistic function of
  a · tanh(c₀) + tanh(c₁) with (c₀, c₁) the pre-activation x · W_ihᵀ + b_ih + h · W_hhᵀ + b_hh of a small recurrent cell.

  The blocked program leaves the aggregate and the effective weight to the host and evaluates the rest block by
  block: its matrix products run into zero accumulators on narrowed operands (the narrowing is the identity on the
  extended reals), its logistic function is one operation. The reference evaluates everything on whole arrays and
  spells the logistic function as 1 / (1 + e^(−u)). Over the extended reals the two agree entry by entry without any
  use of finiteness: every step of one is the same step of the other, up to where an operand's entry is read from —
  a transposed weight at the swapped coordinates, a bias or the scale at its one free coordinate, a row of a block at
  the row of the array it was cut from — and the pattern of 1.0 denoting the number one.

  Proof/Spec.lean states f once (`ode`); Proof/RefValue.lean reads the reference's result as `ode`;
  Proof/Gate.lean, Proof/Block.lean and Proof/Blocks.lean read one block of the blocked program and then the whole
  array; Proof/HostSide.lean reads what the host prepared; Proof/KernelValue.lean joins them into the blocked
  program's run. The aggregate and the effective weight are never opened: both programs build them by the same
  operations from the same arguments.
-/
import proofs.«167394_j44074954391861_1_alg».proof.Defs
import proofs.«167394_j44074954391861_1_alg».proof.Proof.Gen.Kernel
import proofs.«167394_j44074954391861_1_alg».proof.Proof.Gen.Kernel.Skeleton
import proofs.«167394_j44074954391861_1_alg».proof.Proof.Gen.Kernel.Launch
import proofs.«167394_j44074954391861_1_alg».proof.Proof.Gen.Kernel.Points
import proofs.«167394_j44074954391861_1_alg».proof.Proof.Gen.Kernel.Frame
import proofs.«167394_j44074954391861_1_alg».proof.Proof.Gen.KernelIdeal
import proofs.«167394_j44074954391861_1_alg».proof.Proof.Gen.KernelIdeal.Skeleton
import proofs.«167394_j44074954391861_1_alg».proof.Proof.Gen.KernelIdeal.Launch
import proofs.«167394_j44074954391861_1_alg».proof.Proof.Gen.KernelIdeal.Points
import proofs.«167394_j44074954391861_1_alg».proof.Proof.Gen.KernelIdeal.Frame
import proofs.«167394_j44074954391861_1_alg».proof.Proof.Gen.ReferenceIdeal
import proofs.«167394_j44074954391861_1_alg».proof.Proof.Gen.Pre_finite_inputs
import proofs.«167394_j44074954391861_1_alg».proof.Proof.Gen.KernelIdeal.Value
import proofs.«167394_j44074954391861_1_alg».proof.Proof.Gen.ReferenceIdeal.Run
import proofs.«167394_j44074954391861_1_alg».proof.Proof.Gen.ReferenceIdeal.Read
import proofs.«167394_j44074954391861_1_alg».proof.Proof.KernelValue
import proofs.«167394_j44074954391861_1_alg».proof.Proof.RefValue
import Idealize.ShloMosaic.Adequacy
import Idealize.ShloMosaic.Init

noncomputable section

namespace Cert.Proof

open Idealize.ShloMosaic Idealize.SL.Sem

/-- The blocked program as printed runs, and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From arguments that agree, both programs end with the result array at f of the arguments: the blocked program by
    its blocks tiling the array, the reference by its operations read at an index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v52_eq, Cert.ReferenceIdeal.RefValue.ref_is_ode, a1, a2, a3, a4, a5, a6, a7, a8,
    a9, a10, a11, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
